-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S64x16384 : Shape := ⟨2, ![64, 16384]⟩
abbrev S1024x1024 : Shape := ⟨2, ![1024, 1024]⟩
abbrev S64x1024 : Shape := ⟨2, ![64, 1024]⟩
abbrev S1024 : Shape := ⟨1, ![1024]⟩
abbrev S1x1024 : Shape := ⟨2, ![1, 1024]⟩
abbrev S16384x64 : Shape := ⟨2, ![16384, 64]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x16384, .f32⟩
  | .hbm, ⟨3, _⟩ => ⟨S16384x64, .f32⟩
  | .local _ .vmem, ⟨0, _⟩ => ⟨S1024x1024, .f32⟩
  | .local _ .vmem, ⟨1, _⟩ => ⟨S1024x1024, .f32⟩
  | .local _ .vmem, ⟨2, _⟩ => ⟨S64x2048, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x2048_S64x1024_0_0 : ∀ a, (![0, 0] : Fin 2 → Nat) a + S64x1024.size a ≤ S64x2048.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  inb_S64x1024_S64x1024_0_0 : ∀ a, (![0, 0] : Fin 2 → Nat) a + S64x1024.size a ≤ S64x1024.size a
  shapeCasts_S64x1024_S64x1024 : S64x1024.ShapeCasts S64x1024
  inb_S64x2048_S64x1024_0_1024 : ∀ a, (![0, 1024] : Fin 2 → Nat) a + S64x1024.size a ≤ S64x2048.size a
  reduces_S64x1024_S1024 : S64x1024.Reduces [0] S1024
  shapeCasts_S1024_S1x1024 : S1024.ShapeCasts S1x1024
  broadcasts_S1x1024_S64x1024 : S1x1024.Broadcasts S64x1024
  transposes_S64x16384_S16384x64_1_0 : S64x16384.Transposes [1, 0] S16384x64
  dot_S64x1024_S1024x1024_S64x1024_1_1_0_0_n_n_wf : DotDims.WF S64x1024 S1024x1024 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x2048.size a
  hwx0_0 : ∀ i : grid0.Coords, EltTy.bits .f32 = 32 ∨ (Rect.block (s := S16384x2048) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x16384.size a
  hwx0_2 : ∀ i : grid0.Coords, EltTy.bits .f32 = 32 ∨ (Rect.block (s := S64x16384) S64x1024.size (cc0_transform_2 i) (hinb0_2 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Found.lean ====
/-
  What one grid step of the kernel leaves behind, as values. The grid is 16 token blocks by 2 halves of the
  contraction axis. At the first half the body multiplies the first 1024 columns of the expert matrix with the
  token block's first 1024 columns and keeps the 64×1024 product in its scratch accumulator; at the second half it
  adds the product over the last 1024 columns, takes the softmax down each column of 64, and stores that into the
  output block. Each step stores one whole block, so what the buffer holds afterwards is that store's value, and each
  load reads a whole buffer or a literal half of the expert matrix.
-/
import proofs.«147950_g24893630448048_cont_9to1_1163_15_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- Columns 0 … 1023 of the expert matrix, as the body loads them. -/
abbrev expertsLo (w : Vec F S64x2048 .f32) : Vec F S64x1024 .f32 :=
  View.ld w (Rect.unit (s := S64x2048) ![0, 0] S64x1024.size inb_S64x2048_S64x1024_0_0)

/-- Columns 1024 … 2047 of the expert matrix, as the body loads them. -/
abbrev expertsHi (w : Vec F S64x2048 .f32) : Vec F S64x1024 .f32 :=
  View.ld w (Rect.unit (s := S64x2048) ![0, 1024] S64x1024.size inb_S64x2048_S64x1024_0_1024)

/-- After a first-half step the accumulator holds the product of the experts' first half with the token block. -/
theorem acc_firstHalf (c : Dev nD) (i : grid0.Coords) (arg2 : Memref sig .tc .vmem S1024x1024 .f32) (harg2 : arg2.IsWhole) (arg3 : Memref sig .tc .vmem S64x2048 .f32) (harg3 : arg3.IsWhole) (arg4 : Memref sig .tc .vmem S64x1024 .f32) (harg4 : arg4.IsWhole) (arg5 : Memref sig .tc .vmem S64x1024 .f32) (harg5 : arg5.IsWhole) (hc0 : cond0_0 i) (hc1 : ¬cond0_1 i)
    (x0 : Vec F S1024x1024 .f32) (x1 : Vec F S64x2048 .f32) :
    sout0_A_0 c i arg2 harg2 arg3 harg3 arg4 harg4 arg5 harg5 hc0 hc1 x0 x1 = k0_pay1 (expertsLo x1) x0 := by
  unfold sout0_A_0
  rw [View.read_writes_eq_canon _ _ _ (scover0_A_0 c i arg2 harg2 arg3 harg3 arg4 harg4 arg5 harg5 hc0 hc1 x0 x1)]
  unfold kernelRun0_A
  dsimp only
  rw [View.canon_unit_zero hz]
  simp only [View.readAt_eq_ld, harg2.read_unread, harg3.read_unread, View.ld_unit_zero (S := S1024x1024) hz]

/-- After a second-half step the output block holds the softmax payload of the accumulator it found, the experts'
    second half and the token block. -/
theorem out_secondHalf (c : Dev nD) (i : grid0.Coords) (arg2 : Memref sig .tc .vmem S1024x1024 .f32) (harg2 : arg2.IsWhole) (arg3 : Memref sig .tc .vmem S64x2048 .f32) (harg3 : arg3.IsWhole) (arg4 : Memref sig .tc .vmem S64x1024 .f32) (harg4 : arg4.IsWhole) (arg5 : Memref sig .tc .vmem S64x1024 .f32) (harg5 : arg5.IsWhole) (hc0 : ¬cond0_0 i) (hc1 : cond0_1 i)
    (x0 : Vec F S1024x1024 .f32) (x1 : Vec F S64x2048 .f32) (xs0 : Vec F S64x1024 .f32) :
    out0_B_2 c i arg2 harg2 arg3 harg3 arg4 harg4 arg5 harg5 hc0 hc1 x0 x1 xs0 = k0_pay2 xs0 (expertsHi x1) x0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S1024x1024) hz, View.ld_unit_zero (S := S64x1024) hz]

end Cert.KernelIdeal.Found

end
-- ==== Proof.Spec.lean ====
/-
  The router as mathematics, over the extended reals: a token's logits are its inner products with the 64 expert
  rows, and its gate is the softmax of those 64 numbers — each exponential of (logit − largest logit) over the sum
  of the 64 exponentials. Both programs compute exactly this; they differ in how the 2048-term inner product is
  grouped (the kernel adds the first 1024 products and the last 1024 products separately, with the factors in the
  other order), and a sum over 2048 terms is the sum of its two halves in any commutative monoid, so nothing here
  needs the entries to be finite.
-/
import Idealize.ShloMosaic.PureOps.Ideal
import Idealize.ShloMosaic.PureOps.Ideal.Laws
import Idealize.ShloMosaic.Lib.ValueIdx

noncomputable section

open scoped BigOperators

namespace Cert.Router

open Idealize.ShloMosaic Idealize.ShloMosaic.ValueIdx

/-- The word both programs start their maximum from denotes minus infinity. -/
theorem negInf_eq_bot : Ideal.ofBits .f32 0xFF800000#32 = (⊥ : EReal) := by
  simp [Ideal.ofBits, Ideal.ieee]

/-- The largest of 64 numbers, folded from minus infinity. -/
def colMax (L : Fin 64 → EReal) : EReal :=
  (Finset.univ : Finset (Fin 64)).fold max (Ideal.ofBits .f32 0xFF800000#32) L

/-- Softmax of 64 numbers at position `e`. -/
def softmaxAt (L : Fin 64 → EReal) (e : Fin 64) : EReal :=
  Ideal.div (Ideal.exp (L e - colMax L)) (∑ e' : Fin 64, Ideal.exp (L e' - colMax L))

/-- Taking the maximum with minus infinity once more changes nothing. -/
theorem max_negInf (y : EReal) : max (Ideal.ofBits .f32 0xFF800000#32) y = y := by
  rw [negInf_eq_bot]; exact max_eq_right bot_le

/-- Token `t`'s logit for expert `e`: the inner product of row `t` of `x` with row `e` of `w`. -/
def logit (x : (⟨2, ![16384, 2048]⟩ : Shape).Idx → EReal) (w : (⟨2, ![64, 2048]⟩ : Shape).Idx → EReal)
    (t : Fin 16384) (e : Fin 64) : EReal :=
  ∑ k : Fin 2048, x (ix2 t k) * w (ix2 e k)

/-- The router's result, tokens by experts. -/
def router (x : (⟨2, ![16384, 2048]⟩ : Shape).Idx → EReal) (w : (⟨2, ![64, 2048]⟩ : Shape).Idx → EReal) :
    (⟨2, ![16384, 64]⟩ : Shape).Idx → EReal :=
  fun i => softmaxAt (logit x w (i 0)) (i 1)

/-- The same laid out experts by tokens, as the kernel's region writes it before the final transpose. -/
def routerT (x : (⟨2, ![16384, 2048]⟩ : Shape).Idx → EReal) (w : (⟨2, ![64, 2048]⟩ : Shape).Idx → EReal) :
    (⟨2, ![64, 16384]⟩ : Shape).Idx → EReal :=
  fun i => softmaxAt (logit x w (i 1)) (i 0)

/-- A sum over 2048 terms is the sum over the first 1024 plus the sum over the last 1024. -/
theorem sum_halves {M : Type} [AddCommMonoid M] (f : Fin 2048 → M) :
    ∑ k : Fin 2048, f k
      = (∑ k : Fin 1024, f ⟨k.val, by omega⟩) + ∑ k : Fin 1024, f ⟨1024 + k.val, by omega⟩ :=
  Fin.sum_univ_add (a := 1024) (b := 1024) f

/-- Row `q` of token block `b` (1024 tokens to a block). -/
def tokRow (b : Fin 16) (q : Fin 1024) : Fin 16384 := ⟨1024 * b.val + q.val, by omega⟩

/-- Column `k` of half `h` of the contraction axis (1024 columns to a half). -/
def colIdx (h : Fin 2) (k : Fin 1024) : Fin 2048 := ⟨1024 * h.val + k.val, by omega⟩

/-- The logit, grouped as the kernel groups it: the products over the first half of the columns, then over the
    second half, each product with the expert's entry first. -/
theorem logit_halves (x : (⟨2, ![16384, 2048]⟩ : Shape).Idx → EReal) (w : (⟨2, ![64, 2048]⟩ : Shape).Idx → EReal)
    (t : Fin 16384) (e : Fin 64) :
    logit x w t e
      = (∑ k : Fin 1024, w (ix2 e (colIdx 0 k)) * x (ix2 t (colIdx 0 k)))
        + ∑ k : Fin 1024, w (ix2 e (colIdx 1 k)) * x (ix2 t (colIdx 1 k)) := by
  unfold logit
  rw [sum_halves]
  have h0 : ∀ k : Fin 1024, (⟨k.val, by omega⟩ : Fin 2048) = colIdx 0 k := fun k =>
    Fin.ext (by show k.val = 1024 * 0 + k.val; omega)
  have h1 : ∀ k : Fin 1024, (⟨1024 + k.val, by omega⟩ : Fin 2048) = colIdx 1 k := fun k =>
    Fin.ext (by show 1024 + k.val = 1024 * 1 + k.val; omega)
  congr 1
  · exact Finset.sum_congr rfl fun k _ => by rw [h0 k, mul_comm]
  · exact Finset.sum_congr rfl fun k _ => by rw [h1 k, mul_comm]

end Cert.Router

end
-- ==== Proof.Body.lean ====
/-
  The kernel body's two stored values read entry by entry over the extended reals. The first-half value is a plain
  matrix product into zero: entry (e, q) is the inner product of expert row e (1024 columns of it) with token row q of
  the block. The second-half value is, down each column q, the softmax of the 64 numbers "accumulator entry plus the
  second inner product": the column maximum is a fold of max from minus infinity over the 64 rows, the denominator the
  sum of the 64 exponentials, and the row vector of maxima (of sums) is spread back over the 64 rows by a cast to one
  row and a broadcast.
-/
import proofs.«147950_g24893630448048_cont_9to1_1163_15_alg».proof.Proof.Gen.KernelIdeal.Skeleton
import proofs.«147950_g24893630448048_cont_9to1_1163_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.Router
open Idealize.ShloMosaic Idealize.ShloMosaic.ValueIdx

/-! ## The matrix product at an entry -/

theorem lhs_row (i : S64x1024.Idx) (p : dot_S64x1024_S1024x1024_S64x1024_1_1_0_0_n_n.contr.Idx) :
    (dot_S64x1024_S1024x1024_S64x1024_1_1_0_0_n_n.lhsIdx i p 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
theorem lhs_col (i : S64x1024.Idx) (p : dot_S64x1024_S1024x1024_S64x1024_1_1_0_0_n_n.contr.Idx) :
    (dot_S64x1024_S1024x1024_S64x1024_1_1_0_0_n_n.lhsIdx i p 1).val = (p ⟨0, by decide⟩).val :=
  dot_S64x1024_S1024x1024_S64x1024_1_1_0_0_n_n.lhsIdx_val_of_single rfl i p
theorem rhs_row (i : S64x1024.Idx) (p : dot_S64x1024_S1024x1024_S64x1024_1_1_0_0_n_n.contr.Idx) :
    (dot_S64x1024_S1024x1024_S64x1024_1_1_0_0_n_n.rhsIdx i p 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
theorem rhs_col (i : S64x1024.Idx) (p : dot_S64x1024_S1024x1024_S64x1024_1_1_0_0_n_n.contr.Idx) :
    (dot_S64x1024_S1024x1024_S64x1024_1_1_0_0_n_n.rhsIdx i p 1).val = (p ⟨0, by decide⟩).val :=
  dot_S64x1024_S1024x1024_S64x1024_1_1_0_0_n_n.rhsIdx_val_of_single rfl i p

/-- Experts' slab times token block, into zero: entry (e, q) is the inner product of slab row `e` with block row `q`. -/
theorem dot_apply (a : FVec Ideal S64x1024 .f32) (b : FVec Ideal S1024x1024 .f32) (e : Fin 64) (q : Fin 1024) :
    (matmul dot_S64x1024_S1024x1024_S64x1024_1_1_0_0_n_n none a b (constant (F := Ideal) S64x1024 .f32 0x00000000#32)) (ix2 e q)
      = ∑ k : Fin 1024, a (ix2 e k) * b (ix2 q k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 e q) ((contrEquiv1 dot_S64x1024_S1024x1024_S64x1024_1_1_0_0_n_n 1024 rfl rfl).symm k) = ix2 e k := funext fun a => Fin.ext (by
    match a with
    | ⟨0, _⟩ => exact lhs_row _ _
    | ⟨1, _⟩ => exact (lhs_col _ _).trans hk)
  have er : dot_S64x1024_S1024x1024_S64x1024_1_1_0_0_n_n.rhsIdx (ix2 e q) ((contrEquiv1 dot_S64x1024_S1024x1024_S64x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The first-half value at an entry. -/
theorem firstHalf_apply (a : Vec Ideal S64x1024 .f32) (b : Vec Ideal S1024x1024 .f32) (e : Fin 64) (q : Fin 1024) :
    k0_pay1 (F := Ideal) a b (ix2 e q) = ∑ k : Fin 1024, a (ix2 e k) * b (ix2 q k) := by
  unfold k0_pay1
  rw [shapeCast_self]
  exact dot_apply a b e q

/-! ## Down a column: maximum, sum, and spreading a row over the rows -/

/-- Column `q` of a 64×1024 vector with row `k` put back in is entry (k, q). -/
theorem lift_col (h : S64x1024.Reduces [0] S1024) (q : Fin 1024) (k : Fin (S64x1024.size 0)) :
    h.lift (ix1 q) k = ix2 (⟨k.val, k.isLt⟩ : Fin 64) q := by
  funext c; apply Fin.ext
  fin_cases c <;> rfl

/-- The row-wise maximum of a 64×1024 vector, at column `q`: the largest of the 64 entries of that column. -/
theorem colMax_apply (L : FVec Ideal S64x1024 .f32) (hφ : FKind.Formats .f32)
    (hacc : (0xFF800000#32 : BitVec FTy.f32.bits) = FKind.maximumf.neutral .f32 hφ) (q : Fin 1024) :
    multiReduction .maximumf [0] S1024 L 0xFF800000#32 reduces_S64x1024_S1024 hφ hacc (ix1 q)
      = colMax fun e' => L (ix2 e' q) := by
  refine (Ideal.multiReduction_maximumf_single L 0xFF800000#32 reduces_S64x1024_S1024 hφ hacc (ix1 q)).trans ?_
  unfold colMax
  have hf : (L ∘ reduces_S64x1024_S1024.lift (ix1 q)) = fun k : Fin 64 => L (ix2 k q) :=
    funext fun k => congrArg L (lift_col reduces_S64x1024_S1024 q k)
  exact congrArg (fun f => Finset.fold max (Ideal.ofBits .f32 0xFF800000#32) f (Finset.univ : Finset (Fin 64))) hf

/-- The row-wise sum of a 64×1024 vector, at column `q`: the sum of the 64 entries of that column. -/
theorem colSum_apply (E : FVec Ideal S64x1024 .f32) (hφ : FKind.Formats .f32)
    (hacc : (0x00000000#32 : BitVec FTy.f32.bits) = FKind.add.neutral .f32 hφ) (q : Fin 1024) :
    multiReduction .add [0] S1024 E 0x00000000#32 reduces_S64x1024_S1024 hφ hacc (ix1 q)
      = ∑ e' : Fin 64, E (ix2 e' q) := by
  refine (Ideal.multiReduction_add_single E 0x00000000#32 reduces_S64x1024_S1024 hφ hacc (ix1 q)).trans ?_
  exact Finset.sum_congr rfl fun k _ => congrArg E (lift_col reduces_S64x1024_S1024 q k)

/-- A vector of 1024 column values, cast to one row and spread over the 64 rows, reads its column's value everywhere. -/
theorem spread_apply (v : FVec Ideal S1024 .f32) (e : Fin 64) (q : Fin 1024) :
    broadcastTo S64x1024 (shapeCast S1x1024 v shapeCasts_S1024_S1x1024) broadcasts_S1x1024_S64x1024 (ix2 e q) = v (ix1 q) :=
  (broadcastTo_1b_ab_apply _ broadcasts_S1x1024_S64x1024 e q).trans
    (shapeCast_a_1a_apply v shapeCasts_S1024_S1x1024 0 q)

/-- Softmax down the columns of a 64×1024 vector of logits, as the body computes it, at entry (e, q). -/
theorem softmaxCols_apply (L : FVec Ideal S64x1024 .f32) (hφ : FKind.Formats .f32)
    (hmax : (0xFF800000#32 : BitVec FTy.f32.bits) = FKind.maximumf.neutral .f32 hφ)
    (hadd : (0x00000000#32 : BitVec FTy.f32.bits) = FKind.add.neutral .f32 hφ) (e : Fin 64) (q : Fin 1024) :
    divf
      (exp (subf L (broadcastTo S64x1024 (shapeCast S1x1024
        (multiReduction .maximumf [0] S1024 L 0xFF800000#32 reduces_S64x1024_S1024 hφ hmax) shapeCasts_S1024_S1x1024) broadcasts_S1x1024_S64x1024)))
      (broadcastTo S64x1024 (shapeCast S1x1024
        (multiReduction .add [0] S1024
          (exp (subf L (broadcastTo S64x1024 (shapeCast S1x1024
            (multiReduction .maximumf [0] S1024 L 0xFF800000#32 reduces_S64x1024_S1024 hφ hmax) shapeCasts_S1024_S1x1024) broadcasts_S1x1024_S64x1024)))
          0x00000000#32 reduces_S64x1024_S1024 hφ hadd) shapeCasts_S1024_S1x1024) broadcasts_S1x1024_S64x1024)
      (ix2 e q)
      = softmaxAt (fun e' => L (ix2 e' q)) e := by
  have hE : ∀ e' : Fin 64,
      (exp (subf L (broadcastTo S64x1024 (shapeCast S1x1024
        (multiReduction .maximumf [0] S1024 L 0xFF800000#32 reduces_S64x1024_S1024 hφ hmax) shapeCasts_S1024_S1x1024) broadcasts_S1x1024_S64x1024))
        : FVec Ideal S64x1024 .f32) (ix2 e' q)
        = Ideal.exp (L (ix2 e' q) - colMax fun e'' => L (ix2 e'' q)) := fun e' => by
    show Ideal.exp (L (ix2 e' q) - broadcastTo S64x1024 _ broadcasts_S1x1024_S64x1024 (ix2 e' q)) = _
    rw [spread_apply, colMax_apply]
  rw [divf_apply, spread_apply, colSum_apply, hE e]
  unfold softmaxAt
  exact congrArg (Ideal.div _) (Finset.sum_congr rfl fun e' _ => hE e')

/-- The second-half value at an entry: softmax down column `q` of accumulator plus second product. -/
theorem secondHalf_apply (acc : Vec Ideal S64x1024 .f32) (a : Vec Ideal S64x1024 .f32) (b : Vec Ideal S1024x1024 .f32)
    (e : Fin 64) (q : Fin 1024) :
    k0_pay2 (F := Ideal) acc a b (ix2 e q)
      = softmaxAt (fun e' => acc (ix2 e' q) + ∑ k : Fin 1024, a (ix2 e' k) * b (ix2 q k)) e := by
  unfold k0_pay2
  dsimp only
  refine (softmaxCols_apply _ _ _ _ e q).trans ?_
  exact congrArg (fun f => softmaxAt f e) (funext fun e' => by rw [addf_apply, dot_apply])

end Cert.KernelIdeal.Body

end
-- ==== Proof.Step.lean ====
/-
  Two consecutive grid steps on one token block, read entry by entry: the first leaves the product over the first
  half of the columns in the accumulator, the second adds the product over the second half and takes the column
  softmax. The halves of the expert matrix the body loads are its columns 0 … 1023 and 1024 … 2047.
-/
import proofs.«147950_g24893630448048_cont_9to1_1163_15_alg».proof.Proof.Found
import proofs.«147950_g24893630448048_cont_9to1_1163_15_alg».proof.Proof.Body

noncomputable section

open scoped BigOperators

namespace Cert.KernelIdeal.Step

open Cert.KernelIdeal Cert.KernelIdeal.Gen Cert.KernelIdeal.Found Cert.KernelIdeal.Body Cert.Router
open Idealize.ShloMosaic Idealize.ShloMosaic.ValueIdx

/-- The first half of the expert matrix at (e, k) is the matrix at (e, k). -/
theorem expertsLo_apply (w : Vec Ideal S64x2048 .f32) (e : Fin 64) (k : Fin 1024) :
    expertsLo w (ix2 e k) = w (ix2 e (colIdx 0 k)) := by
  show w ((Rect.unit (s := S64x2048) ![0, 0] S64x1024.size inb_S64x2048_S64x1024_0_0).emb (ix2 e k)) = _
  refine congrArg w (funext fun a => Fin.ext ?_)
  match a with
  | ⟨0, _⟩ => show 0 + 1 * e.val = e.val; omega
  | ⟨1, _⟩ => show 0 + 1 * k.val = 1024 * 0 + k.val; omega

/-- The second half of the expert matrix at (e, k) is the matrix at (e, 1024 + k). -/
theorem expertsHi_apply (w : Vec Ideal S64x2048 .f32) (e : Fin 64) (k : Fin 1024) :
    expertsHi w (ix2 e k) = w (ix2 e (colIdx 1 k)) := by
  show w ((Rect.unit (s := S64x2048) ![0, 1024] S64x1024.size inb_S64x2048_S64x1024_0_1024).emb (ix2 e k)) = _
  refine congrArg w (funext fun a => Fin.ext ?_)
  match a with
  | ⟨0, _⟩ => show 0 + 1 * e.val = e.val; omega
  | ⟨1, _⟩ => show 1024 + 1 * k.val = 1024 * 1 + k.val; omega

/-- The two steps together: at (e, q), the softmax down column `q` of "first-half product plus second-half product". -/
theorem twoSteps_apply (wa wb : Vec Ideal S64x2048 .f32) (xa xb : Vec Ideal S1024x1024 .f32) (e : Fin 64) (q : Fin 1024) :
    k0_pay2 (F := Ideal) (k0_pay1 (expertsLo wa) xa) (expertsHi wb) xb (ix2 e q)
      = softmaxAt (fun e' => (∑ k : Fin 1024, wa (ix2 e' (colIdx 0 k)) * xa (ix2 q k))
          + ∑ k : Fin 1024, wb (ix2 e' (colIdx 1 k)) * xb (ix2 q k)) e := by
  rw [secondHalf_apply]
  refine congrArg (fun f => softmaxAt f e) (funext fun e' => ?_)
  rw [firstHalf_apply]
  congr 1
  · exact Finset.sum_congr rfl fun k _ => congrArg (· * xa (ix2 q k)) (expertsLo_apply wa e' k)
  · exact Finset.sum_congr rfl fun k _ => congrArg (· * xb (ix2 q k)) (expertsHi_apply wb e' k)

end Cert.KernelIdeal.Step

end
-- ==== Proof.Blocks.lean ====
/-
  From grid steps to the array the region writes. Point t of the 32-point grid works on token block t / 2 and on
  half t % 2 of the contraction axis; the expert matrix is staged whole at every point. The output block of token
  block b is written back once, after the odd point 2b + 1, and by then it holds, at (e, q), the softmax over the
  experts of token 1024·b + q's logits — the logit being the sum of the two half products, which is the full inner
  product. The sixteen written blocks tile the 64×16384 array, so after the region the array is the router's
  result laid out experts by tokens.
-/
import proofs.«147950_g24893630448048_cont_9to1_1163_15_alg».proof.Proof.Gen.KernelIdeal.Frame
import proofs.«147950_g24893630448048_cont_9to1_1163_15_alg».proof.Proof.Step
import Idealize.ShloMosaic.Lib.Pipeline.Value

set_option maxRecDepth 16384

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Found Cert.KernelIdeal.Step Cert.Router
open Idealize.ShloMosaic.ValueIdx

variable (m : (ℓ : Loc nD τ sig) → Buf (Elt Ideal) ℓ) (ρ : Dev nD → PrngReg)

theorem N32 : cfg0.N = 32 := N_0

/-- The token block point `t` works on, -/
def blkOf (t : Fin cfg0.N) : Fin 16 := ⟨t.val / 2, by have := lt_of_lt_of_eq t.isLt N32; omega⟩
/-- and the half of the contraction axis. -/
def halfOf (t : Fin cfg0.N) : Fin 2 := ⟨t.val % 2, by omega⟩

/-- The printed index maps over the grid: tokens move with (t / 2, t % 2), the experts stay, the output moves with t / 2. -/
theorem idx_facts : ∀ t : Fin cfg0.N, win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = t.val / 2 :=
  (by decide +kernel : ∀ t : Fin grid0.N, _)

/-- Two functions of a rank-2 index that agree at every pair of coordinates are equal. -/
theorem ext_ix2 {α : Type} {n0 n1 : Nat} (f g : (⟨2, ![n0, n1]⟩ : Shape).Idx → α)
    (h : ∀ (a : Fin n0) (b : Fin n1), f (ix2 a b) = g (ix2 a b)) : f = g :=
  funext fun j => by rw [eq_ix2 j]; exact h _ _

/-- The token block staged at point `t`, at (q, k): token 1024·(t / 2) + q, column 1024·(t % 2) + k. -/
theorem tokens_apply (c : Dev nD) (t : Fin cfg0.N) (q k : Fin 1024) :
    (iblk m c 0 t : Vec Ideal S1024x1024 .f32) (ix2 q k)
      = V m c main_arg0 (ix2 (tokRow (blkOf t) q) (colIdx (halfOf t) k)) := by
  obtain ⟨e0, e1, -, -, -, -⟩ := idx_facts t
  show V m c main_arg0 (((cfg0.win 0).blk t).view.emb (ix2 q k)) = V m c main_arg0 _
  refine congrArg (V m c main_arg0) (funext fun a => Fin.ext ?_)
  match a with
  | ⟨0, _⟩ => show win0_0.index t (0 : Fin 2) * 1024 + 1 * q.val = 1024 * (t.val / 2) + q.val; rw [e0]; omega
  | ⟨1, _⟩ => show win0_0.index t (1 : Fin 2) * 1024 + 1 * k.val = 1024 * (t.val % 2) + k.val; rw [e1]; omega

/-- The expert matrix staged at any point is the whole matrix. -/
theorem experts_apply (c : Dev nD) (t : Fin cfg0.N) (e : Fin 64) (j : Fin 2048) :
    (iblk m c 1 t : Vec Ideal S64x2048 .f32) (ix2 e j) = V m c main_arg1 (ix2 e j) := by
  obtain ⟨-, -, e2, e3, -, -⟩ := idx_facts t
  show V m c main_arg1 (((cfg0.win 1).blk t).view.emb (ix2 e j)) = V m c main_arg1 _
  refine congrArg (V m c main_arg1) (funext fun a => Fin.ext ?_)
  match a with
  | ⟨0, _⟩ => show win0_1.index t (0 : Fin 2) * 64 + 1 * e.val = e.val; rw [e2]; omega
  | ⟨1, _⟩ => show win0_1.index t (1 : Fin 2) * 2048 + 1 * j.val = j.val; rw [e3]; omega

/-- After an even point the accumulator holds the first-half product of that point's blocks. -/
theorem acc_even (c : Dev nD) (t : Fin cfg0.N) (h0 : t.val % 2 = 0) (h1 : ¬t.val % 2 = 1) :
    (outsAt0 m c t.val t.isLt).2 = k0_pay1 (expertsLo (iblk m c 1 t)) (iblk m c 0 t) := by
  rw [outsAt0_A m c t h0 h1]
  dsimp only
  exact acc_firstHalf (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After an odd point the output block holds the second-half value over the accumulator the point before left. -/
theorem out_odd (c : Dev nD) (t : Fin cfg0.N) (h0 : ¬t.val % 2 = 0) (h1 : t.val % 2 = 1) :
    (outsAt0 m c t.val t.isLt).1
      = k0_pay2 (outsAt0 m c (t.val - 1) (Nat.lt_of_le_of_lt (Nat.sub_le _ _) t.isLt)).2 (expertsHi (iblk m c 1 t)) (iblk m c 0 t) := by
  rw [outsAt0_B m c t h0 h1]
  dsimp only
  exact out_secondHalf (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- What an odd point writes back is its block of the router's result (experts by tokens). -/
theorem flushed_eq (c : Dev nD) (t : Fin cfg0.N) (hf : (cfg0.win 2).flush t = true) :
    (dats m 0 c).flushed 2 t
      = ((cfg0.win 2).blk t).view.read (Elt Ideal) (routerT (V m c main_arg0) (V m c main_arg1)) := by
  have h1 : t.val % 2 = 1 := (flush0_2 t).mp hf
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have hb : blkOf ⟨t.val - 1, hlt⟩ = blkOf t := Fin.ext (by show (t.val - 1) / 2 = t.val / 2; omega)
  have hh' : halfOf ⟨t.val - 1, hlt⟩ = 0 := Fin.ext (by show (t.val - 1) % 2 = 0; omega)
  have hh : halfOf t = 1 := Fin.ext (by show t.val % 2 = 1; omega)
  obtain ⟨-, -, -, -, e4, e5⟩ := idx_facts t
  show (cfg0.win 2).cut (grid0.coords t) ((dats m 0 c).after 2 t) = _
  rw [after0_2, out_odd m c t h0 h1]
  rw [show (outsAt0 m c (t.val - 1) (Nat.lt_of_le_of_lt (Nat.sub_le _ _) t.isLt)).2 = _ from acc_even m c ⟨t.val - 1, hlt⟩ h0' h1']
  refine ext_ix2 (n0 := 64) (n1 := 1024) _ _ fun e q => ?_
  refine (twoSteps_apply (iblk m c 1 ⟨t.val - 1, hlt⟩) (iblk m c 1 t) (iblk m c 0 ⟨t.val - 1, hlt⟩) (iblk m c 0 t) e q).trans ?_
  show _ = routerT (V m c main_arg0) (V m c main_arg1) (((cfg0.win 2).blk t).view.emb (ix2 e q))
  have hi : ((cfg0.win 2).blk t).view.emb (ix2 e q) = ix2 e (tokRow (blkOf t) q) := funext fun a => Fin.ext (by
    match a with
    | ⟨0, _⟩ => show win0_2.index t (0 : Fin 2) * 64 + 1 * e.val = e.val; rw [e4]; omega
    | ⟨1, _⟩ => show win0_2.index t (1 : Fin 2) * 1024 + 1 * q.val = 1024 * (t.val / 2) + q.val; rw [e5]; omega)
  rw [hi]
  show _ = softmaxAt (logit (V m c main_arg0) (V m c main_arg1) (tokRow (blkOf t) q)) e
  refine congrArg (fun f => softmaxAt f e) (funext fun e' => ?_)
  rw [logit_halves]
  simp only [tokens_apply m c, experts_apply m c, hb, hh', hh]

/-- An index of the array is in point `t`'s output block iff each coordinate is in the block's range on its axis. -/
theorem mem_blk (t : Fin cfg0.N) (i : S64x16384.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v0).slice (win0_2.rect t)).set ↔ _
  rw [View.set_slice_whole, Rect.mem_set_unit]
  exact Iff.rfl

/-- Every entry of the 64×16384 array lies in the block some odd point writes back: token column j is in block j / 1024. -/
theorem covered (i : S64x16384.Idx) :
    ∃ t : Fin cfg0.N, (cfg0.win 2).flush t = true ∧ i ∈ ((cfg0.win 2).blk t).view.set := by
  have hi0 : (i 0).val < 64 := (i 0).isLt
  have hi1 : (i 1).val < 16384 := (i 1).isLt
  have hN := N32
  let t : Fin cfg0.N := ⟨2 * ((i 1).val / 1024) + 1, by omega⟩
  have htv : t.val = 2 * ((i 1).val / 1024) + 1 := rfl
  obtain ⟨-, -, -, -, e4, e5⟩ := idx_facts t
  refine ⟨t, (flush0_2 t).mpr (by omega), ?_⟩
  rw [mem_blk]
  intro a
  match a with
  | ⟨0, _⟩ => show win0_2.index t (0 : Fin 2) * 64 ≤ (i 0).val ∧ (i 0).val < win0_2.index t (0 : Fin 2) * 64 + 64; rw [e4]; omega
  | ⟨1, _⟩ => show win0_2.index t (1 : Fin 2) * 1024 ≤ (i 1).val ∧ (i 1).val < win0_2.index t (1 : Fin 2) * 1024 + 1024; rw [e5, htv]; omega

/-- After the region the output array is the router's result, experts by tokens. -/
theorem region_result (c : Dev nD) :
    (dats m 0 c).arrAt 2 cfg0.N = routerT (V m c main_arg0) (V m c main_arg1) :=
  (dats m 0 c).arrAt_eq_of_cover 2 (routerT (V m c main_arg0) (V m c main_arg1)) (flushed_eq m c) covered

end Cert.KernelIdeal.Blocks

end
-- ==== Proof.KernelValue.lean ====
/-
  The kernel program's result. After the region the 64×16384 array holds the router's result experts by tokens; the
  one host line after the region transposes it, and the transpose of "experts by tokens" at (t, e) is the entry at
  (e, t): the router's result tokens by experts. The two argument arrays are inputs the region only reads.
-/
import proofs.«147950_g24893630448048_cont_9to1_1163_15_alg».proof.Proof.Blocks
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Blocks Cert.Router
open Idealize.ShloMosaic.ValueIdx

variable (m : (ℓ : Loc nD τ sig) → Buf (Elt Ideal) ℓ) (ρ : Dev nD → PrngReg)

/-- The transpose of the experts-by-tokens layout is the tokens-by-experts one. -/
theorem transpose_routerT (x : (⟨2, ![16384, 2048]⟩ : Shape).Idx → EReal) (w : (⟨2, ![64, 2048]⟩ : Shape).Idx → EReal) :
    transpose S16384x64 [1, 0] (routerT x w) transposes_S64x16384_S16384x64_1_0 = router x w :=
  ext_ix2 (n0 := 16384) (n1 := 64) _ _ fun t e =>
    transpose_ix2_apply (routerT x w) transposes_S64x16384_S16384x64_1_0 t e

/-- What the line after the region leaves in the program's result. -/
theorem tail_result (c : Dev nD) :
    Pipeline.afterTail₀ cfgs (dats m) 0 (V0 m) [hostOps1] c main_v1
      = router (m ((c.tc : Thread nD τ).loc main_arg0)) (m ((c.tc : Thread nD τ).loc main_arg1)) := by
  have hreg : Pipeline.withArrays spec0 c (V0 m c) (fun w => (dats m 0 c).arrAt w cfg0.N) (Proc.devRef .tc (Pipeline.arrRef spec0 2))
      = routerT (V m c main_arg0) (V m c main_arg1) :=
    (Pipeline.withArrays_arr spec0 launch0.win.arr_inj c _ _ 2).trans (region_result m c)
  unfold Pipeline.afterTail₀
  show StableHlo.after hostOps1 _ (Proc.devRef .tc main_v1) = _
  after_results
  refine (congrArg (fun v => transpose S16384x64 [1, 0] v transposes_S64x16384_S16384x64_1_0) hreg).trans ?_
  exact transpose_routerT _ _

/-- Every weakly fair execution of the kernel program ends with its result at the router of the arguments, the
    arguments unchanged. -/
theorem run : θ_run defs (onTc (τ := τ) (main (F := Ideal))) ⟨m, fun _ => 0, ρ⟩ fun r => ∀ c : Dev nD,
      r.2.mem ((c.tc : Thread nD τ).loc main_v1)
        = router (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference program is the router of the specification. Read one operation at a time: its matrix product at
  (t, e) is the inner product of token row t with expert row e (the transposed expert matrix read back at its
  source entry); the reduction with a maximum body over the expert axis, from minus infinity, is the largest of the
  64 logits of the row, and one more maximum with a splat of minus infinity changes nothing; the two broadcasts
  carry the row's value to every entry of the row; the sum from zero over the expert axis is the sum of the 64
  exponentials; the last division is entry over row sum.
-/
import proofs.«147950_g24893630448048_cont_9to1_1163_15_alg».proof.Proof.Gen.ReferenceIdeal.Read
import proofs.«147950_g24893630448048_cont_9to1_1163_15_alg».proof.Proof.Spec

noncomputable section

open scoped BigOperators

namespace Cert.ReferenceIdeal.RefValue

open Cert.ReferenceIdeal Cert.ReferenceIdeal.Gen Cert.ReferenceIdeal.Read Cert.Router
open Idealize.ShloMosaic Idealize.ShloMosaic.ValueIdx

/-- The reference's logits: entry (t, e) is token row `t` against expert row `e`. -/
theorem logits_apply (x0 : (⟨S16384x2048, .f32⟩ : BufTy).Contents (Elt Ideal)) (x1 : (⟨S64x2048, .f32⟩ : BufTy).Contents (Elt Ideal))
    (t : Fin 16384) (e : Fin 64) :
    val_main_v1 (F := Ideal) x0 x1 (ix2 t e) = logit x0 x1 t e := by
  rw [val_main_v1_apply]
  unfold logit
  refine Finset.sum_congr rfl fun k _ => ?_
  rw [val_main_v0_apply]
  have hl : lidx_main_v1 (ix2 t e) k = ix2 t k := funext fun a => Fin.ext (by match a with | ⟨0, _⟩ => rfl | ⟨1, _⟩ => rfl)
  have hr : idx_main_v0 (ridx_main_v1 (ix2 t e) k) = ix2 e k := funext fun a => Fin.ext (by match a with | ⟨0, _⟩ => rfl | ⟨1, _⟩ => rfl)
  rw [hl, hr]

/-- Row `t` of a 16384×64 array with expert `k` put back in is entry (t, k). -/
theorem lift_row (h : S16384x64.Reduces [1] S16384) (t : Fin 16384) (k : Fin (S16384x64.size 1)) :
    h.lift (ix1 t) k = ix2 t (⟨k.val, k.isLt⟩ : Fin 64) := by
  funext c; apply Fin.ext
  fin_cases c <;> rfl

/-- The reference's row maximum is the largest of the row's 64 logits. -/
theorem rowMax_apply (x0 : (⟨S16384x2048, .f32⟩ : BufTy).Contents (Elt Ideal)) (x1 : (⟨S64x2048, .f32⟩ : BufTy).Contents (Elt Ideal))
    (t : Fin 16384) :
    val_main_v2 (F := Ideal) x0 x1 (ix1 t) = colMax (logit x0 x1 t) := by
  have hR : S16384x64.Reduces [1] S16384 := by decide
  unfold val_main_v2
  rw [Host.reduce_eq_fold_single (FloatOps.maximumf (F := Ideal) (φ := .f32)) (val_main_v1 (F := Ideal) x0 x1)
    (val_main_cst (F := Ideal)) reducesTo_S16384x64_S16384_d1 hR h_S_ (ix1 t)]
  have hf : (val_main_v1 (F := Ideal) x0 x1 ∘ hR.lift (ix1 t)) = fun e : Fin 64 => logit x0 x1 t e :=
    funext fun k => (congrArg (val_main_v1 (F := Ideal) x0 x1) (lift_row hR t k)).trans (logits_apply x0 x1 t _)
  unfold colMax
  exact congrArg (fun f => Finset.fold max (Ideal.ofBits .f32 0xFF800000#32) f (Finset.univ : Finset (Fin 64))) hf

/-- The reference's exponentials: entry (t, e) is exp (logit − the row's largest logit). -/
theorem exps_apply (x0 : (⟨S16384x2048, .f32⟩ : BufTy).Contents (Elt Ideal)) (x1 : (⟨S64x2048, .f32⟩ : BufTy).Contents (Elt Ideal))
    (t : Fin 16384) (e : Fin 64) :
    val_main_v8 (F := Ideal) x0 x1 (ix2 t e) = Ideal.exp (logit x0 x1 t e - colMax (logit x0 x1 t)) := by
  have hi : idx_main_v5 (idx_main_v6 (ix2 t e)) = ix1 t := funext fun a => Fin.ext (by match a with | ⟨0, _⟩ => rfl)
  rw [val_main_v8_apply, val_main_v7_apply, val_main_v6_apply, val_main_v5_apply, hi, val_main_v4_apply,
    val_main_v3_apply, val_main_cst_0_apply, rowMax_apply, logits_apply]
  simp only [Ideal.hostUnary_exp_def, Ideal.subf_def, Ideal.maximumf_def, Ideal.ofBits_def, max_negInf]

/-- The reference's result is the router. -/
theorem result_eq (x0 : (⟨S16384x2048, .f32⟩ : BufTy).Contents (Elt Ideal)) (x1 : (⟨S64x2048, .f32⟩ : BufTy).Contents (Elt Ideal)) :
    val_main_v12 (F := Ideal) x0 x1 = router x0 x1 := by
  funext i
  obtain ⟨t, e, rfl⟩ : ∃ (t : Fin 16384) (e : Fin 64), i = ix2 t e := ⟨i 0, i 1, eq_ix2 i⟩
  have hi : idx_main_v10 (idx_main_v11 (ix2 t e)) = ix1 t := funext fun a => Fin.ext (by match a with | ⟨0, _⟩ => rfl)
  have hk : ∀ k : Fin 64, idx_main_v9 (ix1 t) k = ix2 t k := fun k =>
    funext fun a => Fin.ext (by match a with | ⟨0, _⟩ => rfl | ⟨1, _⟩ => rfl)
  rw [val_main_v12_apply, val_main_v11_apply, val_main_v10_apply, hi, val_main_v9_apply, val_main_cst_1_apply, exps_apply]
  show _ = softmaxAt (logit x0 x1 t) e
  unfold softmaxAt
  simp only [Ideal.hostDivf_def, Ideal.ofBits_def, Ideal.ofBits_zero_f32, zero_add]
  exact congrArg (Ideal.div _) (Finset.sum_congr rfl fun k _ => by rw [hk k, exps_apply])

end Cert.ReferenceIdeal.RefValue

end
-- ==== Proof.lean ====
/-
  A softmax router: logits = x · Wᵀ over 2048 columns for 16384 tokens and 64 experts, then the softmax over the 64
  experts. The kernel computes it per block of 1024 tokens in two steps — the product over columns 0 … 1023 kept in an
  accumulator, then the product over columns 1024 … 2047 added, and the softmax taken down the experts — into an
  experts-by-tokens array that one transpose turns back; the reference computes the whole product at once. Over the
  extended reals the two are the same function of the arguments, entry by entry: a 2048-term sum is the sum of its
  two halves, products commute, and the maximum, exponential, sum and quotient are applied to equal numbers
  (Spec: the function; RefValue: the reference is it; Found, Body, Step, Blocks, KernelValue: the kernel is it).
  No step uses that the inputs are finite. The three programs' runs leave their arguments unchanged, and the
  idealized kernel is the kernel's own text, so nothing is owed for the idealization.
-/
import proofs.«147950_g24893630448048_cont_9to1_1163_15_alg».proof.Defs
import proofs.«147950_g24893630448048_cont_9to1_1163_15_alg».proof.Proof.Gen.Kernel
import proofs.«147950_g24893630448048_cont_9to1_1163_15_alg».proof.Proof.Gen.Kernel.Frame
import proofs.«147950_g24893630448048_cont_9to1_1163_15_alg».proof.Proof.Gen.KernelIdeal
import proofs.«147950_g24893630448048_cont_9to1_1163_15_alg».proof.Proof.Gen.KernelIdeal.Frame
import proofs.«147950_g24893630448048_cont_9to1_1163_15_alg».proof.Proof.Gen.ReferenceIdeal
import proofs.«147950_g24893630448048_cont_9to1_1163_15_alg».proof.Proof.Gen.ReferenceIdeal.Run
import proofs.«147950_g24893630448048_cont_9to1_1163_15_alg».proof.Proof.Gen.ReferenceIdeal.Read
import proofs.«147950_g24893630448048_cont_9to1_1163_15_alg».proof.Proof.Gen.Pre_finite_inputs
import proofs.«147950_g24893630448048_cont_9to1_1163_15_alg».proof.Proof.KernelValue
import proofs.«147950_g24893630448048_cont_9to1_1163_15_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- Both programs end with the router of the arguments. -/
theorem algebraic : Cert.algebraic_KernelIdeal_ReferenceIdeal := by
  intro m ρ m' ρ' _ hagree
  refine ⟨fun c => Cert.Router.router
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
